-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x512 : Shape := ⟨2, ![1024, 512]⟩
abbrev S100000x512 : Shape := ⟨2, ![100000, 512]⟩
abbrev S_ : Shape := ⟨0, ![]⟩

class Facts : Prop where
  bcast_S_S1024x512 : S_.BroadcastsInDim S1024x512 (![] : Fin 0 → Fin S1024x512.rank)
  reducesTo_S1024x512_S_d0_1 : S1024x512.ReducesTo [0, 1] S_
  h_S_ : 0 < S_.numel
  bcast_S_S100000x512 : S_.BroadcastsInDim S100000x512 (![] : Fin 0 → Fin S100000x512.rank)
  reducesTo_S100000x512_S_d0_1 : S100000x512.ReducesTo [0, 1] S_

variable [Facts]

def fn {F : FTy → Type} [FloatOps F] (main_arg0 : FVec F S1024x512 .f32) (main_arg1 : FVec F S100000x512 .f32) : IVec S_ 1 :=
  let main_v0 : FVec F S1024x512 .f32 := Host.absf main_arg0
  let main_cst : FVec F S_ .f32 := constant S_ .f32 0x7F800000#32
  let main_v1 : FVec F S1024x512 .f32 := broadcastInDim S1024x512 ![] bcast_S_S1024x512 main_cst
  let main_v2 : IVec S1024x512 1 := cmpf .olt main_v0 main_v1
  let main_c : IVec S_ 1 := constantI S_ 1 1#1
  let main_v3 : IVec S_ 1 := (fun x v => Host.reduce IntOp.andi x v reducesTo_S1024x512_S_d0_1 h_S_) main_v2 main_c
  let main_v4 : FVec F S100000x512 .f32 := Host.absf main_arg1
  let main_cst_0 : FVec F S_ .f32 := constant S_ .f32 0x7F800000#32
  let main_v5 : FVec F S100000x512 .f32 := broadcastInDim S100000x512 ![] bcast_S_S100000x512 main_cst_0
  let main_v6 : IVec S100000x512 1 := cmpf .olt main_v4 main_v5
  let main_c_1 : IVec S_ 1 := constantI S_ 1 1#1
  let main_v7 : IVec S_ 1 := (fun x v => Host.reduce IntOp.andi x v reducesTo_S100000x512_S_d0_1 h_S_) main_v6 main_c_1
  let main_v8 : IVec S_ 1 := andi main_v3 main_v7
  main_v8
-- ==== Kernel.lean ====
abbrev S1024x512 : Shape := ⟨2, ![1024, 512]⟩
abbrev S100000x512 : Shape := ⟨2, ![100000, 512]⟩
abbrev S1024x100000 : Shape := ⟨2, ![1024, 100000]⟩
abbrev S4096x512 : Shape := ⟨2, ![4096, 512]⟩
abbrev S1024x4096 : Shape := ⟨2, ![1024, 4096]⟩

abbrev nBuf : Space → Nat
  | .hbm => 4
  | .vmem => 5
  | .smem => 0
  | _ => 0

abbrev bufTy : (tb : Table) → Fin (tcTables nBuf tb) → BufTy
  | .hbm, ⟨0, _⟩ => ⟨S1024x512, .f32⟩
  | .hbm, ⟨1, _⟩ => ⟨S100000x512, .f32⟩
  | .hbm, ⟨2, _⟩ => ⟨S1024x512, .bf16⟩
  | .hbm, ⟨3, _⟩ => ⟨S1024x100000, .f32⟩
  | .local _ .vmem, ⟨0, _⟩ => ⟨S1024x512, .bf16⟩
  | .local _ .vmem, ⟨1, _⟩ => ⟨S4096x512, .f32⟩
  | .local _ .vmem, ⟨2, _⟩ => ⟨S4096x512, .f32⟩
  | .local _ .vmem, ⟨3, _⟩ => ⟨S1024x4096, .f32⟩
  | .local _ .vmem, ⟨4, _⟩ => ⟨S1024x4096, .f32⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S1024x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bitsLt_bf16_f32 : FTy.bits .bf16 < FTy.bits .f32
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S4096x512_S4096x512_0_0 : ∀ a, (![0, 0] : Fin 2 → Nat) a + S4096x512.size a ≤ S4096x512.size a
  h_S4096x512 : 0 < S4096x512.numel
  inb_S1024x4096_S1024x4096_0_0 : ∀ a, (![0, 0] : Fin 2 → Nat) a + S1024x4096.size a ≤ S1024x4096.size a
  h_S1024x4096 : 0 < S1024x4096.numel
  dot_S1024x512_S4096x512_S1024x4096_1_1_0_0_n_n_wf : DotDims.WF S1024x512 S4096x512 S1024x4096 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S1024x512.size a
  hwx0_0 : ∀ i : grid0.Coords, EltTy.bits .bf16 = 32 ∨ (Rect.block (s := S1024x512) S1024x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S4096x512.size a < S100000x512.size a
  hwx0_1 : ∀ i : grid0.Coords, EltTy.bits .f32 = 32 ∨ (Rect.unit (s := S100000x512) (fun a => cc0_transform_1 i a * S4096x512.size a) (fun a => (Pipeline.Clip.of (cc0_transform_1 i a) (S4096x512.size a) (S100000x512.size a)).extent (S4096x512.size a)) fun a => Pipeline.Clip.inb (Pipeline.Clip.ok_of (hstart0_1 i a))).WholeWords (EltTy.packing .f32)
  hwxs0_1 : ∀ i : grid0.Coords, EltTy.bits .f32 = 32 ∨ (Rect.unit (s := S4096x512) (fun _ => 0) (fun a => (Pipeline.Clip.of (cc0_transform_1 i a) (S4096x512.size a) (S100000x512.size a)).extent (S4096x512.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S1024x4096.size a < S1024x100000.size a
  hwx0_2 : ∀ i : grid0.Coords, EltTy.bits .f32 = 32 ∨ (Rect.unit (s := S1024x100000) (fun a => cc0_transform_2 i a * S1024x4096.size a) (fun a => (Pipeline.Clip.of (cc0_transform_2 i a) (S1024x4096.size a) (S1024x100000.size a)).extent (S1024x4096.size a)) fun a => Pipeline.Clip.inb (Pipeline.Clip.ok_of (hstart0_2 i a))).WholeWords (EltTy.packing .f32)
  hwxs0_2 : ∀ i : grid0.Coords, EltTy.bits .f32 = 32 ∨ (Rect.unit (s := S1024x4096) (fun _ => 0) (fun a => (Pipeline.Clip.of (cc0_transform_2 i a) (S1024x4096.size a) (S1024x100000.size a)).extent (S1024x4096.size a)) fun a => (Nat.zero_add _).trans_le (Pipeline.Clip.extent_le (Pipeline.Clip.ok_of (hstart0_2 i a)))).WholeWords (EltTy.packing .f32)

variable [Facts₀]

def dot_S1024x512_S4096x512_S1024x4096_1_1_0_0_n_n : DotDims S1024x512 S4096x512 S1024x4096 where
  lhsContracting := [1]
  rhsContracting := [1]
  lhsNonContracting := [0]
  rhsNonContracting := [0]
  lhsBatch := []
  rhsBatch := []
  wf := dot_S1024x512_S4096x512_S1024x4096_1_1_0_0_n_n_wf

abbrev win0_0 : Pipeline.Window sig grid0 :=
  Pipeline.Window.ofSpec (Memref.whole main_v0) S1024x512.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpecClip (Memref.whole main_arg1) S4096x512.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpecClip (Memref.whole main_v1) S1024x4096.size cc0_transform_2 reads0_2 true false 2 stage0_2 sem0_2
    hrank0 hreads0_2 hstart0_2 nbuf0_2 (Memref.isWhole_whole _) hwx0_2 hwxs0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S1024x512 : Shape := ⟨2, ![1024, 512]⟩
abbrev S100000x512 : Shape := ⟨2, ![100000, 512]⟩
abbrev S512x100000 : Shape := ⟨2, ![512, 100000]⟩
abbrev S1024x100000 : Shape := ⟨2, ![1024, 100000]⟩

abbrev nBuf : Space → Nat
  | .hbm => 4
  | .vmem => 0
  | .smem => 0
  | _ => 0

abbrev bufTy : (tb : Table) → Fin (tcTables nBuf tb) → BufTy
  | .hbm, ⟨0, _⟩ => ⟨S1024x512, .f32⟩
  | .hbm, ⟨1, _⟩ => ⟨S100000x512, .f32⟩
  | .hbm, ⟨2, _⟩ => ⟨S512x100000, .f32⟩
  | .hbm, ⟨3, _⟩ => ⟨S1024x100000, .f32⟩
  | _, _ => ⟨S1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]

class Facts₀ : Prop where
  transposes_S100000x512_S512x100000_1_0 : S100000x512.Transposes [1, 0] S512x100000
  dot_S1024x512_S512x100000_S1024x100000_1_0_0_1_n_n_wf : DotDims.WF S1024x512 S512x100000 S1024x100000 [1] [0] [0] [1] [] []

variable [Facts₀]

def dot_S1024x512_S512x100000_S1024x100000_1_0_0_1_n_n : DotDims S1024x512 S512x100000 S1024x100000 where
  lhsContracting := [1]
  rhsContracting := [0]
  lhsNonContracting := [0]
  rhsNonContracting := [1]
  lhsBatch := []
  rhsBatch := []
  wf := dot_S1024x512_S512x100000_S1024x100000_1_0_0_1_n_n_wf

class Facts : Prop extends Facts₀ where

variable [Facts]
-- ==== Proof.KernelBody.lean ====
/-
  The matmul kernel's body, run once on arbitrary whole staging buffers (any float instance).

  The body reads the whole feature buffer `x` (1024×512) and the whole weight buffer `w` (4096×512), forms the
  1024×4096 product block `x · wᵀ` (contraction over the 512 columns of both), reads the result buffer (a value
  nothing uses) and overwrites the whole result buffer with the product. So after the body the two input buffers
  hold what they held and the result buffer holds `prod x w`, a function of the two inputs' contents alone.
-/
import proofs.«120571_g12781822673385_cont_fleet_1281_28_alg».proof.Proof.Gen.Kernel.Frame
import proofs.«120571_g12781822673385_cont_fleet_1281_28_alg».proof.Proof.Gen.Kernel.Skeleton
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The three whole-buffer rectangles the body accesses: offset zero, the buffer's own extents. -/
abbrev rx : Rect S1024x512 := Rect.unit (s := S1024x512) ![0, 0] S1024x512.size inb_S1024x512_S1024x512_0_0
abbrev rw : Rect S4096x512 := Rect.unit (s := S4096x512) ![0, 0] S4096x512.size inb_S4096x512_S4096x512_0_0
abbrev ro : Rect S1024x4096 := Rect.unit (s := S1024x4096) ![0, 0] S1024x4096.size inb_S1024x4096_S1024x4096_0_0

/-- What the result buffer holds after the body, from the contents `x`, `w` of the two input buffers: the one
    whole-buffer store of the product block. -/
def prod (x : Vec F S1024x512 .bf16) (w : Vec F S4096x512 .f32) : Vec F S1024x4096 .f32 :=
  View.canon [⟨ro, k0_pay1 (View.ld x rx) (View.ld w rw)⟩]

/-- The one store covers the result buffer. -/
theorem cover_o (p0 : Vec F S1024x4096 .f32) (y : S1024x4096.Idx) :
    ∃ pc ∈ ([⟨ro, p0⟩] : List (View.Piece (Elt F) S1024x4096 .f32)), y ∈ pc.1.set :=
  View.cover_of_tiled [⟨ro, p0⟩] S1024x4096.size (by rfl) y

set_option maxHeartbeats 1000000 in
/-- The body on whole staging buffers holding `x`, `w` and anything: it runs, leaves the inputs as they were and
    the result buffer at `prod x w`. -/
theorem sound_kernel (c : Dev nD) (E : Set ℕ) (i : grid0.Coords)
    (arg1 : Memref sig .tc .vmem S1024x512 .bf16) (harg1 : arg1.IsWhole)
    (arg2 : Memref sig .tc .vmem S4096x512 .f32) (harg2 : arg2.IsWhole)
    (arg3 : Memref sig .tc .vmem S1024x4096 .f32) (harg3 : arg3.IsWhole)
    (x : Vec F S1024x512 .bf16) (w : Vec F S4096x512 .f32) (K : PUnit → sProp 𝕄) :
    iprop(owns (c : Thread nD τ) arg1 fullShare x ∗ owns (c : Thread nD τ) arg2 fullShare w ∗ (∃ d, owns (c : Thread nD τ) arg3 fullShare d)
        ∗ (iprop(owns (c : Thread nD τ) arg1 fullShare x ∗ owns (c : Thread nD τ) arg2 fullShare w
              ∗ owns (c : Thread nD τ) arg3 fullShare (prod x w)) -∗ K ⟨⟩))
      ⊢ wp frame (wpE (defs₀ (F := F)) Variants.none c none) E (cc0__mm_kernel i arg1 harg1 arg2 harg2 arg3 harg3) K := by
  simp only [cc0__mm_kernel_eq_skeleton]; unfold cc0__mm_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover_o _)

end Cert.Kernel.Hand

end
-- ==== Proof.KernelFrame.lean ====
/-
  The frame of the kernel as printed (read at bit patterns): it runs to the end, faults nowhere, and leaves its two
  argument arrays as they were.

  Nothing is claimed here of what the result array holds, and the body's accesses (three whole-buffer loads, one
  whole-buffer store into the result's staging buffer) are in bounds whatever the buffers hold. So the proof data
  forgets every window: each staging buffer is handed to the body at some contents and taken back at some contents.
  The argument arrays are never written: the weight matrix is an input window's array, the feature matrix is read
  only by the host's conversion before the region.
-/
import proofs.«120571_g12781822673385_cont_fleet_1281_28_alg».proof.Proof.KernelBody

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Every window is forgotten: the frame reads none of their staging buffers' contents. -/
def forgets0 : Fin 3 → Bool := fun _ => true

/-- The proof data: the arrays as the region finds them; what the body leaves in the staging buffers unnamed. -/
def dats (_ : Fin 1) (c : Dev nD) : Dat τ (Elt F) Unit ℕ (UR sig nD τ) ℕ cfg0 c where
  A w := V m c (Pipeline.arrRef spec0 w)
  after w t := Pipeline.Dat.unnamed (cfg := cfg0) w t
  Φ _ := Pipeline.ΦA spec0 c
  q _ := fullShare
  owed _ := 0

theorem A_eq (c : Dev nD) (w : Fin cfg0.W) : (dats m 0 c).A w = V m c (Pipeline.arrRef spec0 w) := by
  dsimp only [dats]

def bodyPre (c : Dev nD) (t : Fin cfg0.N) : sProp 𝕄 :=
  iprop((dats m 0 c).Φ t.castSucc ∗ (dats m 0 c).owesAt () t.castSucc
    ∗ (∃ X, owns (c : Thread nD τ) (st0_0 t) fullShare X)
    ∗ (∃ X, owns (c : Thread nD τ) (st0_1 t) fullShare X)
    ∗ (∃ X, owns (c : Thread nD τ) (st0_2 t) fullShare X))

def bodyPost (c : Dev nD) (t : Fin cfg0.N) : sProp 𝕄 :=
  iprop((dats m 0 c).Φ t.succ ∗ (dats m 0 c).owesAt () t.succ
    ∗ (∃ X, owns (c : Thread nD τ) (st0_0 t) fullShare X)
    ∗ (∃ X, owns (c : Thread nD τ) (st0_1 t) fullShare X)
    ∗ (∃ X, owns (c : Thread nD τ) (st0_2 t) fullShare X))

/-- The body at any point, on staging buffers holding anything. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = (dats m 0 c).Φ t.castSucc from rfl,
    show (dats m 0 c).owesAt () t.succ = (dats m 0 c).owesAt () t.castSucc from rfl]
  iintro ⟨HΦ, Ho, ⟨%X0, H0⟩, ⟨%X1, H1⟩, ⟨%X2, H2⟩⟩
  iapply (sound_kernel (F := F) c Set.univ _ _ _ _ _ _ _ X0 X1 _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexists _; iexact H0
  isplitl [H1]; · iexists _; iexact H1
  iexists _; iexact H2

/-- The library's body obligation with every window forgotten. -/
theorem body_obligation (c : Dev nD) :
    BodyObligationLoose (dats (F := F) m 0 c) (defs₀ (F := F)) Variants.none () Set.univ forgets0 := fun t => by
  rw [bigSep_W0, bigSep_W0]
  exact sound_body m c t

set_option backward.isDefEq.respectTransparency.types false in
/-- From any memory with zero counters every weakly fair execution of @main terminates; every input array of the
    pipeline ends as it was, and so does every unscoped buffer no window stages. -/
theorem run_main : θ_run defs (onTc (τ := τ) (main (F := F))) (s₀ m ρ)
    (Pipeline.RDat.FramePost (cfgs 0) (fun c => (dats m 0 c).toRForget forgets0) (V m)) :=
  Pipeline.RDat.θ_run_frame cfgs (0 : Fin 1) launch0 defs₀ Variants.none (fun c => (dats m 0 c).toRForget forgets0) m ρ main
    (hbody := fun c => (body_obligation m c).toRForget) (hshare := fun c => ((dats m 0 c).toRForget forgets0).share_full fun _ => rfl)
    (howed := fun _ _ => rfl) (V := V m) (hmain := hmain m Variants.none) (hA := A_eq m) (hΦ := fun _ _ => rfl)

/-- The frame: the feature matrix is no window's array (the post's second clause), the weight matrix is input
    window 1's (never written). -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_arg0 (Pipeline.mem_restRefs_of main_arg0 (by decide) (by decide))).trans (V_main_arg0 m c),
     (Eq.mp (congrFun (((dats m 0 c).toRForget forgets0).ArrAt_in 1 rfl _) _) ((h c).1 1)).trans
       ((A_eq m c 1).trans (V_main_arg1 m c))⟩) (run_main m ρ)

end Cert.Kernel.Hand

end
-- ==== Proof.IdealBody.lean ====
/-
  The matmul kernel's body, run once on arbitrary whole staging buffers (any float instance).

  The body reads the whole feature buffer `x` (1024×512) and the whole weight buffer `w` (4096×512), forms the
  1024×4096 product block `x · wᵀ` (contraction over the 512 columns of both), reads the result buffer (a value
  nothing uses) and overwrites the whole result buffer with the product. So after the body the two input buffers
  hold what they held and the result buffer holds `prod x w`, a function of the two inputs' contents alone.
-/
import proofs.«120571_g12781822673385_cont_fleet_1281_28_alg».proof.Proof.Gen.KernelIdeal.Frame
import proofs.«120571_g12781822673385_cont_fleet_1281_28_alg».proof.Proof.Gen.KernelIdeal.Skeleton
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The three whole-buffer rectangles the body accesses: offset zero, the buffer's own extents. -/
abbrev rx : Rect S1024x512 := Rect.unit (s := S1024x512) ![0, 0] S1024x512.size inb_S1024x512_S1024x512_0_0
abbrev rw : Rect S4096x512 := Rect.unit (s := S4096x512) ![0, 0] S4096x512.size inb_S4096x512_S4096x512_0_0
abbrev ro : Rect S1024x4096 := Rect.unit (s := S1024x4096) ![0, 0] S1024x4096.size inb_S1024x4096_S1024x4096_0_0

/-- What the result buffer holds after the body, from the contents `x`, `w` of the two input buffers: the one
    whole-buffer store of the product block. -/
def prod (x : Vec F S1024x512 .bf16) (w : Vec F S4096x512 .f32) : Vec F S1024x4096 .f32 :=
  View.canon [⟨ro, k0_pay1 (View.ld x rx) (View.ld w rw)⟩]

/-- The one store covers the result buffer. -/
theorem cover_o (p0 : Vec F S1024x4096 .f32) (y : S1024x4096.Idx) :
    ∃ pc ∈ ([⟨ro, p0⟩] : List (View.Piece (Elt F) S1024x4096 .f32)), y ∈ pc.1.set :=
  View.cover_of_tiled [⟨ro, p0⟩] S1024x4096.size (by rfl) y

set_option maxHeartbeats 1000000 in
/-- The body on whole staging buffers holding `x`, `w` and anything: it runs, leaves the inputs as they were and
    the result buffer at `prod x w`. -/
theorem sound_kernel (c : Dev nD) (E : Set ℕ) (i : grid0.Coords)
    (arg1 : Memref sig .tc .vmem S1024x512 .bf16) (harg1 : arg1.IsWhole)
    (arg2 : Memref sig .tc .vmem S4096x512 .f32) (harg2 : arg2.IsWhole)
    (arg3 : Memref sig .tc .vmem S1024x4096 .f32) (harg3 : arg3.IsWhole)
    (x : Vec F S1024x512 .bf16) (w : Vec F S4096x512 .f32) (K : PUnit → sProp 𝕄) :
    iprop(owns (c : Thread nD τ) arg1 fullShare x ∗ owns (c : Thread nD τ) arg2 fullShare w ∗ (∃ d, owns (c : Thread nD τ) arg3 fullShare d)
        ∗ (iprop(owns (c : Thread nD τ) arg1 fullShare x ∗ owns (c : Thread nD τ) arg2 fullShare w
              ∗ owns (c : Thread nD τ) arg3 fullShare (prod x w)) -∗ K ⟨⟩))
      ⊢ wp frame (wpE (defs₀ (F := F)) Variants.none c none) E (cc0__mm_kernel i arg1 harg1 arg2 harg2 arg3 harg3) K := by
  simp only [cc0__mm_kernel_eq_skeleton]; unfold cc0__mm_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover_o _)

end Cert.KernelIdeal.Hand

end
-- ==== Proof.IdealLocal.lean ====
/-
  The product block at an index, on the extended reals.

  Read at the exact values (a change of float format is the identity, the matrix unit's product into a zero
  accumulator is the plain sum of products), element (r, q) of the block `prod x w` is
  `∑ k < 512, x (r, k) * w (q, k)`: row r of the feature buffer against row q of the weight buffer. In particular
  column q of the block depends on the weight buffer only through its row q.
-/
import proofs.«120571_g12781822673385_cont_fleet_1281_28_alg».proof.Proof.IdealBody
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe

/-- The contraction record of the body's product: the last axis of both operands contracted. -/
abbrev DD := dot_S1024x512_S4096x512_S1024x4096_1_1_0_0_n_n

/-- The feature buffer's index met at block element `j` and contraction step `k`: row `j 0`, column `k`. -/
abbrev xidx (j : S1024x4096.Idx) (k : Fin 512) : S1024x512.Idx := fun a => match a with
  | ⟨0, _⟩ => ⟨(j 0).val, (j 0).isLt⟩
  | ⟨1, _⟩ => ⟨k.val, k.isLt⟩
/-- The weight buffer's: row `j 1`, column `k`. -/
abbrev widx (j : S1024x4096.Idx) (k : Fin 512) : S4096x512.Idx := fun a => match a with
  | ⟨0, _⟩ => ⟨(j 1).val, (j 1).isLt⟩
  | ⟨1, _⟩ => ⟨k.val, k.isLt⟩

theorem lhs_0 (j : S1024x4096.Idx) (q : DD.contr.Idx) : (DD.lhsIdx j q 0).val = (j 0).val := by
  unfold DotDims.lhsIdx
  rw [dif_neg (show ¬(0 : Fin S1024x512.rank) ∈ DD.lhsBatch by decide), dif_pos (show (0 : Fin S1024x512.rank) ∈ DD.lhsNonContracting by decide)]
  rfl
theorem lhs_1 (j : S1024x4096.Idx) (q : DD.contr.Idx) : (DD.lhsIdx j q 1).val = (q ⟨0, by decide⟩).val :=
  DD.lhsIdx_val_of_single rfl j q
theorem rhs_0 (j : S1024x4096.Idx) (q : DD.contr.Idx) : (DD.rhsIdx j q 0).val = (j 1).val := by
  unfold DotDims.rhsIdx
  rw [dif_neg (show ¬(0 : Fin S4096x512.rank) ∈ DD.rhsBatch by decide), dif_pos (show (0 : Fin S4096x512.rank) ∈ DD.rhsNonContracting by decide)]
  rfl
theorem rhs_1 (j : S1024x4096.Idx) (q : DD.contr.Idx) : (DD.rhsIdx j q 1).val = (q ⟨0, by decide⟩).val :=
  DD.rhsIdx_val_of_single rfl j q

/-- Element `j` of the product block is the sum over the 512 contraction steps of the feature buffer's row `j 0`
    against the weight buffer's row `j 1`. -/
theorem prod_apply (x : Vec Ideal S1024x512 .bf16) (w : Vec Ideal S4096x512 .f32) (j : S1024x4096.Idx) :
    prod (F := Ideal) x w j = ∑ k : Fin 512, x (xidx j k) * w (widx j k) := by
  have hz : (![0, 0] : Fin 2 → Nat) = fun _ => 0 := funext fun a => by fin_cases a <;> rfl
  unfold prod
  rw [View.canon_unit_zero hz, View.ld_unit_zero (S := S1024x512) hz, View.ld_unit_zero (S := S4096x512) hz]
  unfold k0_pay1
  simp only [matmul]
  rw [Ideal.matmul_constant_zero_apply, ← Equiv.sum_comp (ValueIdx.contrEquiv1 DD 512 rfl rfl).symm]
  refine Finset.sum_congr rfl fun k _ => ?_
  have hk := ValueIdx.contrEquiv1_symm_val DD 512 rfl rfl k
  have el : DD.lhsIdx j ((ValueIdx.contrEquiv1 DD 512 rfl rfl).symm k) = xidx j k := funext fun a => Fin.ext (by
    match a with
    | ⟨0, _⟩ => exact lhs_0 _ _
    | ⟨1, _⟩ => exact (lhs_1 _ _).trans hk)
  have er : DD.rhsIdx j ((ValueIdx.contrEquiv1 DD 512 rfl rfl).symm k) = widx j k := funext fun a => Fin.ext (by
    match a with
    | ⟨0, _⟩ => exact rhs_0 _ _
    | ⟨1, _⟩ => exact (rhs_1 _ _).trans hk)
  rw [el, er, shapeCast_self]
  rfl

end Cert.KernelIdeal.Hand

end
-- ==== Proof.IdealData.lean ====
/-
  The pipeline's proof data for the idealized kernel, and the body's obligation at every grid point.

  The grid has 25 points; point `t` stages rows `4096·t ‥ 4096·t + 4095` of the weight matrix (window 1) and writes
  back columns `4096·t ‥ 4096·t + 4095` of the result (window 2); the feature matrix (window 0) is staged once and
  stays. 100000 = 24·4096 + 1696, so at the last point both blocks overhang their arrays: only the first 1696 rows
  of the weight buffer are fetched (the other 2400 hold values nothing names) and only the first 1696 columns of the
  result buffer are written back.

  What matters is that column `q` of the product block depends on the weight buffer only through its row `q`
  (`prod_apply`), and that rows and columns are cut at the same place: so the columns that ARE written back are
  computed from rows that WERE fetched, whatever the rest of the weight buffer holds (`prod_local`).
-/
import proofs.«120571_g12781822673385_cont_fleet_1281_28_alg».proof.Proof.IdealLocal

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-! ## Rows and columns are cut alike -/

/-- At every grid point the weight window fetches as many rows as the result window writes back columns, -/
theorem xsize_rows_cols (i : grid0.Coords) : (cfg0.win 1).xsize i 0 = (cfg0.win 2).xsize i 1 := rfl
/-- and all 512 columns of each fetched row. -/
theorem xsize_w_cols (i : grid0.Coords) : (cfg0.win 1).xsize i 1 = 512 := rfl

/-- The written-back columns of the product block do not depend on what the weight buffer holds outside the
    fetched rows: two weight buffers that agree on the fetched rows (`blk`) give product blocks that agree on the
    columns written back. -/
theorem prod_local (i : grid0.Coords) (x : Vec Ideal S1024x512 .bf16) (blk : ((cfg0.win 1).xblock i).Idx → Elt Ideal .f32)
    (d d' : S4096x512.Idx → Elt Ideal .f32) :
    (cfg0.win 2).cut i (prod (F := Ideal) x ((cfg0.win 1).fill i d blk))
      = (cfg0.win 2).cut i (prod (F := Ideal) x ((cfg0.win 1).fill i d' blk)) := by
  funext y
  show prod (F := Ideal) x ((cfg0.win 1).fill i d blk) ((cfg0.win 2).xinj i y)
    = prod (F := Ideal) x ((cfg0.win 1).fill i d' blk) ((cfg0.win 2).xinj i y)
  rw [prod_apply, prod_apply]
  refine Finset.sum_congr rfl fun k _ => ?_
  have hm : (cfg0.win 1).moved i (widx ((cfg0.win 2).xinj i y) k) = true :=
    ((cfg0.win 1).moved_iff i _).mpr fun a => by
      match a with
      | ⟨0, _⟩ => exact (xsize_rows_cols i) ▸ (y 1).isLt
      | ⟨1, _⟩ => exact (xsize_w_cols i) ▸ k.isLt
  unfold Window.fill
  rw [dif_pos hm, dif_pos hm]

end Cert.KernelIdeal.Hand

end
-- ==== Proof.IdealRun.lean ====
/-
  The idealized kernel's run: proof data, the body's obligation at every grid point, and the run of @main.

  After the body at point `t` the feature buffer holds the (whole) feature matrix, the weight buffer holds the
  fetched rows of the weight matrix (and, past the array's end at the last point, whatever it held), and the result
  buffer holds the product block of the two. The proof data names the weight buffer's unfetched rows by a filler
  (zero); by `prod_local` the columns of the product that are written back do not depend on that choice.
-/
import proofs.«120571_g12781822673385_cont_fleet_1281_28_alg».proof.Proof.IdealData

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-! ## The proof data -/

/-- The weight buffer after the fetch at point `t`, its unfetched rows (there are some at the last point only) named
    zero: the fetched rows are rows `4096·t ‥` of the weight matrix. -/
def wbuf (c : Dev nD) (t : Fin cfg0.N) : S4096x512.Idx → Elt Ideal .f32 :=
  (cfg0.win 1).fill (cfg0.grid.coords t) (fun _ => (0 : EReal)) (iblk m c 1 t)

/-- The proof data of the one pipeline on core `c`: the arrays as the region finds them; after the body at point
    `t` the feature buffer at the feature matrix, the weight buffer at `wbuf`, the result buffer at their product
    block; the invariant the scoped rest and the generator register, untouched; nothing owed; full shares. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => wbuf m c t
    | ⟨2, _⟩ => prod (F := Ideal) (iblk m c 0 t) (wbuf m c t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = wbuf m c t := by dsimp only [dats]
theorem after0_2 (c : Dev nD) (t : Fin cfg0.N) :
    (dats m 0 c).after 2 t = prod (F := Ideal) (iblk m c 0 t) (wbuf m c t) := by dsimp only [dats]

/-- The feature buffer holds the feature matrix at every point (fetched at the first only, then kept). -/
theorem before0_0 (c : Dev nD) (t : Fin cfg0.N) (d) : (dats m 0 c).before 0 t d = iblk m c 0 t :=
  before0_0_of m (dats m 0 c) (A_eq m c 0) (after0_0 m c) t d

/-- The weight buffer is fetched at every point: it holds the fetched rows, and `d` elsewhere. -/
theorem before0_1 (c : Dev nD) (t : Fin cfg0.N) (d) :
    (dats m 0 c).before 1 t d = (cfg0.win 1).fill (cfg0.grid.coords t) d (iblk m c 1 t) := by
  unfold Dat.before
  rw [if_pos (fetch0_1 t)]
  unfold Dat.fetched Dat.blockOf iblk
  rw [A_eq]

/-! ## The body's obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ (∃ d, owns (c : Thread nD τ) (st0_1 t) fullShare
        ((cfg0.win 1).fill (cfg0.grid.coords t) d ((cfg0.win 1).cut (cfg0.grid.coords t) ((dats m 0 c).after 1 t))))
    ∗ (∃ d, owns (c : Thread nD τ) (st0_2 t) fullShare
        ((cfg0.win 2).fill (cfg0.grid.coords t) d ((cfg0.win 2).cut (cfg0.grid.coords t) ((dats m 0 c).after 2 t)))))

/-- The body at any point: it finds the feature matrix and the fetched rows (filled out by anything), and leaves
    them and their product block; on the parts the transfers move, that is what the proof data names. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  iintro ⟨HΦ, Ho, ⟨%d0, H0⟩, ⟨%d1, H1⟩, ⟨%d2, H2⟩⟩
  iapply (sound_kernel (F := Ideal) c Set.univ _ _ _ _ _ _ _ (iblk m c 0 t)
    ((cfg0.win 1).fill (cfg0.grid.coords t) d1 (iblk m c 1 t)) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]
  · iexists d1
    have e : (cfg0.win 1).cut (cfg0.grid.coords t) (wbuf m c t) = iblk m c 1 t := (cfg0.win 1).cut_fill _ _ _
    rw [e]; iexact H1
  · iexists prod (F := Ideal) (iblk m c 0 t) ((cfg0.win 1).fill (cfg0.grid.coords t) d1 (iblk m c 1 t))
    have e : (cfg0.win 2).fill (cfg0.grid.coords t)
          (prod (F := Ideal) (iblk m c 0 t) ((cfg0.win 1).fill (cfg0.grid.coords t) d1 (iblk m c 1 t)))
          ((cfg0.win 2).cut (cfg0.grid.coords t) (prod (F := Ideal) (iblk m c 0 t) (wbuf m c t)))
        = prod (F := Ideal) (iblk m c 0 t) ((cfg0.win 1).fill (cfg0.grid.coords t) d1 (iblk m c 1 t)) :=
      (cfg0.win 2).fill_congr_cut _ (prod_local (cfg0.grid.coords t) (iblk m c 0 t) (iblk m c 1 t) d1 _)
    rw [e]; iexact H2

/-- The library's body obligation, at every point (windows 1 and 2 stated on the parts their transfers move). -/
theorem body_obligation (c : Dev nD) :
    BodyObligationLoose (dats m 0 c) (defs₀ (F := Ideal)) Variants.none () Set.univ := fun t => by
  rw [bigSep_W0, bigSep_W0]
  exact sound_body m c t

/-! ## The run -/

set_option backward.isDefEq.respectTransparency.types false in
/-- From any memory with zero counters every weakly fair execution of @main terminates, and every final state has
    every array of the pipeline at what the write-backs of the proof data leave and the feature matrix's source
    untouched. -/
theorem run_main : θ_run defs (onTc (τ := τ) (main (F := Ideal))) (s₀ m ρ) (Pipeline.FramePost cfgs (dats m) 0 (V m)) :=
  Pipeline.θ_run_frame cfgs (dats m) (0 : Fin 1) launch0 defs₀ Variants.none m ρ main
    (hbody := fun c => body_obligation m c) (hshare := fun c => (dats m 0 c).share_full fun _ => rfl)
    (howed := fun _ _ => rfl) (V := V m) (hmain := hmain m Variants.none) (hA := A_eq m) (hΦ := fun _ _ => rfl)

end Cert.KernelIdeal.Hand

end
-- ==== Proof.Spec.lean ====
/-
  The specification: the logits as one function of the two argument matrices, on the extended reals.

  `logits x w` at (r, q) is `∑ k < 512, x (r, k) * w (q, k)`: row r of the 1024×512 feature matrix against row q of
  the 100000×512 weight matrix — the product `x · wᵀ`. Both programs compute exactly this sum, term by term and in
  this order, so no law of the extended reals beyond reading the two sides is needed (and nothing about finiteness).
-/
import Idealize.ShloMosaic.PureOps.Ideal
import Idealize.ShloMosaic.Lib.ValueIdx

noncomputable section

namespace Cert.Spec

open Idealize.ShloMosaic

abbrev Sx : Shape := ⟨2, ![1024, 512]⟩
abbrev Sw : Shape := ⟨2, ![100000, 512]⟩
abbrev So : Shape := ⟨2, ![1024, 100000]⟩

/-- Entry (r, k) of the feature matrix, -/
abbrev xAt (r : Nat) (hr : r < 1024) (k : Fin 512) : Sx.Idx := fun a => match a with
  | ⟨0, _⟩ => ⟨r, hr⟩
  | ⟨1, _⟩ => ⟨k.val, k.isLt⟩
/-- entry (q, k) of the weight matrix. -/
abbrev wAt (q : Nat) (hq : q < 100000) (k : Fin 512) : Sw.Idx := fun a => match a with
  | ⟨0, _⟩ => ⟨q, hq⟩
  | ⟨1, _⟩ => ⟨k.val, k.isLt⟩

/-- The logits: `x · wᵀ`, entry by entry. -/
def logits (x : Sx.Idx → EReal) (w : Sw.Idx → EReal) : So.Idx → EReal :=
  fun i => ∑ k : Fin 512, x (xAt (i 0).val (i 0).isLt k) * w (wAt (i 1).val (i 1).isLt k)

end Cert.Spec

end
-- ==== Proof.IdealValue.lean ====
/-
  What the idealized kernel leaves in the result array: the logits.

  Point `t` writes back columns `4096·t ‥` of the result — all 4096 of the block, or the first 1696 at the last
  point — and what it writes there is the product of the feature matrix's rows with rows `4096·t ‥` of the weight
  matrix: exactly those columns of `logits`. The 25 column ranges together are all 100000 columns, so after the
  last write-back the result array is `logits` of the two argument matrices. (The staged feature matrix is the
  host's conversion of the argument, which at the exact values is the argument itself.)
-/
import proofs.«120571_g12781822673385_cont_fleet_1281_28_alg».proof.Proof.IdealRun
import proofs.«120571_g12781822673385_cont_fleet_1281_28_alg».proof.Proof.Spec
import Idealize.ShloMosaic.Lib.StableHlo.Run

set_option maxRecDepth 16384

noncomputable section

namespace Cert.KernelIdeal.Hand

open Cert.KernelIdeal Cert.KernelIdeal.Gen Cert.Spec
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable (m : (ℓ : Loc nD τ sig) → Buf (Elt Ideal) ℓ) (ρ : Dev nD → PrngReg)

/-- The printed index maps and cuts, decided over the 25 grid points: the feature window always at block (0, 0); the
    weight window at block (t, 0); the result window at block (0, t), all its 1024 rows written back, and of its
    4096 columns those inside the array. -/
theorem grid_facts : ∀ t : Fin cfg0.N,
    win0_0.index t (0 : Fin 2) = 0 ∧ win0_0.index t (1 : Fin 2) = 0
    ∧ win0_1.index t (0 : Fin 2) = t.val ∧ win0_1.index t (1 : Fin 2) = 0
    ∧ win0_2.index t (0 : Fin 2) = 0 ∧ win0_2.index t (1 : Fin 2) = t.val
    ∧ win0_2.xsize (grid0.coords t) (0 : Fin 2) = 1024
    ∧ win0_2.xsize (grid0.coords t) (1 : Fin 2) = min 4096 (100000 - t.val * 4096) :=
  (by decide +kernel : ∀ t : Fin grid0.N, _)

/-- The staged feature matrix is the argument: the host's change of format is the identity on the exact values. -/
theorem V_main_v0 (c : Dev nD) :
    (V m c main_v0 : (⟨S1024x512, .bf16⟩ : BufTy).Contents (Elt Ideal)) = fun j => m ((c : Thread nD τ).loc main_arg0) j := by
  dsimp only [V, hostOps0]; after_results; rfl

/-- WHAT POINT `t` WRITES BACK is its block of the logits of the arrays as the region finds them. -/
theorem flushed_eq (c : Dev nD) (t : Fin cfg0.N) :
    (dats m 0 c).flushed 2 t
      = ((cfg0.win 2).blk t).view.read (Elt Ideal) (logits (V m c main_v0) (V m c main_arg1)) := by
  show (cfg0.win 2).cut (grid0.coords t) ((dats m 0 c).after 2 t) = _
  rw [after0_2]
  obtain ⟨e00, e01, e10, e11, e20, e21, -, -⟩ := grid_facts t
  funext y
  show prod (F := Ideal) (iblk m c 0 t) (wbuf m c t) ((cfg0.win 2).xinj (grid0.coords t) y)
    = logits (V m c main_v0) (V m c main_arg1) (((cfg0.win 2).blk t).view.emb y)
  rw [prod_apply]
  unfold logits
  refine Finset.sum_congr rfl fun k _ => ?_
  have hm : (cfg0.win 1).moved (grid0.coords t) (widx ((cfg0.win 2).xinj (grid0.coords t) y) k) = true :=
    ((cfg0.win 1).moved_iff (grid0.coords t) _).mpr fun a => by
      match a with
      | ⟨0, _⟩ => exact (xsize_rows_cols (grid0.coords t)) ▸ (y 1).isLt
      | ⟨1, _⟩ => exact (xsize_w_cols (grid0.coords t)) ▸ k.isLt
  refine congrArg₂ (· * ·) ?_ ?_
  · show V m c main_v0 (((cfg0.win 0).blk t).view.emb (xidx ((cfg0.win 2).xinj (grid0.coords t) y) k)) = _
    refine congrArg _ (funext fun a => Fin.ext ?_)
    match a with
    | ⟨0, _⟩ =>
      show win0_0.index t (0 : Fin 2) * 1024 + 1 * (y 0).val = win0_2.index t (0 : Fin 2) * 1024 + 1 * (y 0).val
      rw [e00, e20]
    | ⟨1, _⟩ =>
      show win0_0.index t (1 : Fin 2) * 512 + 1 * k.val = k.val
      rw [e01]; omega
  · unfold wbuf Window.fill
    rw [dif_pos hm]
    show V m c main_arg1 (((cfg0.win 1).blk t).view.emb _) = _
    refine congrArg _ (funext fun a => Fin.ext ?_)
    match a with
    | ⟨0, _⟩ =>
      show win0_1.index t (0 : Fin 2) * 4096 + 1 * (y 1).val = win0_2.index t (1 : Fin 2) * 4096 + 1 * (y 1).val
      rw [e10, e21]
    | ⟨1, _⟩ =>
      show win0_1.index t (1 : Fin 2) * 512 + 1 * k.val = k.val
      rw [e11]; omega

/-- An index of the result array is in point `t`'s written-back block iff each coordinate is in the block's range cut
    at the array's end. -/
theorem mem_blk (t : Fin cfg0.N) (i : S1024x100000.Idx) :
    i ∈ ((cfg0.win 2).blk t).view.set ↔ ∀ a : Fin 2, win0_2.index t a * S1024x4096.size a ≤ (i a).val
      ∧ (i a).val < win0_2.index t a * S1024x4096.size a + win0_2.xsize (grid0.coords t) a := by
  show i ∈ ((View.whole main_v1).slice (win0_2.rect t)).set ↔ _
  rw [View.set_slice_whole, Rect.mem_set_unit]
  exact Iff.rfl

/-- Every column `q` of the result is written back by the point `q / 4096`. -/
theorem cover (i : S1024x100000.Idx) :
    ∃ t : Fin cfg0.N, (cfg0.win 2).flush t = true ∧ i ∈ ((cfg0.win 2).blk t).view.set := by
  have hi0 : (i 0).val < 1024 := (i 0).isLt
  have hi1 : (i 1).val < 100000 := (i 1).isLt
  have hN : cfg0.N = 25 := N_0
  have hq : (i 1).val / 4096 < cfg0.N := by rw [hN]; omega
  obtain ⟨-, -, -, -, e20, e21, x0, x1⟩ := grid_facts ⟨(i 1).val / 4096, hq⟩
  refine ⟨⟨(i 1).val / 4096, hq⟩, flush0_2 _, ?_⟩
  rw [mem_blk]
  intro a
  match a with
  | ⟨0, _⟩ =>
    show win0_2.index ⟨(i 1).val / 4096, hq⟩ (0 : Fin 2) * 1024 ≤ (i 0).val
      ∧ (i 0).val < win0_2.index ⟨(i 1).val / 4096, hq⟩ (0 : Fin 2) * 1024 + win0_2.xsize (grid0.coords ⟨(i 1).val / 4096, hq⟩) (0 : Fin 2)
    rw [e20, x0]; omega
  | ⟨1, _⟩ =>
    show win0_2.index ⟨(i 1).val / 4096, hq⟩ (1 : Fin 2) * 4096 ≤ (i 1).val
      ∧ (i 1).val < win0_2.index ⟨(i 1).val / 4096, hq⟩ (1 : Fin 2) * 4096 + win0_2.xsize (grid0.coords ⟨(i 1).val / 4096, hq⟩) (1 : Fin 2)
    rw [e21, x1]
    show (i 1).val / 4096 * 4096 ≤ (i 1).val ∧ (i 1).val < (i 1).val / 4096 * 4096 + min 4096 (100000 - (i 1).val / 4096 * 4096)
    omega

/-- THE RESULT ARRAY after the run: the logits of the two argument matrices. -/
theorem final (c : Dev nD) :
    (dats m 0 c).arrAt 2 cfg0.N
      = logits (m ((c : Thread nD τ).loc main_arg0)) (m ((c : Thread nD τ).loc main_arg1)) := by
  rw [(dats m 0 c).arrAt_eq_of_cover 2 (logits (V m c main_v0) (V m c main_arg1)) (fun t _ => flushed_eq m c t) cover]
  rw [V_main_v0, V_main_arg1]

/-- The run, read: the result array ends at the logits, the arguments as they were. -/
theorem value_run : θ_run defs (onTc (τ := τ) (main (F := Ideal))) ⟨m, fun _ => 0, ρ⟩ fun r => ∀ c : Dev nD,
      r.2.mem ((c : Thread nD τ).loc main_v1) = logits (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨((h c).1 2).trans (final m c),
      ((h c).2 main_arg0 (Pipeline.mem_restRefs_of main_arg0 (by decide) (by decide))).trans (V_main_arg0 m c),
      ((h c).1 1).trans (((dats m 0 c).arrAt_in 1 rfl _).trans ((A_eq m c 1).trans (V_main_arg1 m c)))⟩)
    (run_main m ρ)

end Cert.KernelIdeal.Hand

end
-- ==== Proof.RefSide.lean ====
/-
  The reference computes the logits.

  The reference transposes the weight matrix and contracts the feature matrix's columns against the transposed
  matrix's rows: entry (r, q) is `∑ k, x (r, k) * wᵀ (k, q)`, and `wᵀ (k, q) = w (q, k)`.
-/
import proofs.«120571_g12781822673385_cont_fleet_1281_28_alg».proof.Proof.Gen.ReferenceIdeal.Read
import proofs.«120571_g12781822673385_cont_fleet_1281_28_alg».proof.Proof.Spec

noncomputable section

namespace Cert.ReferenceIdeal.RefValue

open Cert.ReferenceIdeal Cert.ReferenceIdeal.Read Idealize.ShloMosaic Cert.Spec

/-- The reference's result, as a function of its two arguments, is the logits. -/
theorem ref_eq (x0 : (⟨S1024x512, .f32⟩ : BufTy).Contents (Elt Ideal)) (x1 : (⟨S100000x512, .f32⟩ : BufTy).Contents (Elt Ideal)) :
    val_main_v1 (F := Ideal) x0 x1 = logits x0 x1 := by
  funext i
  rw [val_main_v1_apply]
  unfold logits
  refine Finset.sum_congr rfl fun k _ => ?_
  rw [val_main_v0_apply]
  have e0 : lidx_main_v1 i k = xAt (i 0).val (i 0).isLt k :=
    funext fun a => Fin.ext (by match a with | ⟨0, _⟩ => rfl | ⟨1, _⟩ => rfl)
  have e1 : idx_main_v0 (ridx_main_v1 i k) = wAt (i 1).val (i 1).isLt k :=
    funext fun a => Fin.ext (by match a with | ⟨0, _⟩ => rfl | ⟨1, _⟩ => rfl)
  rw [e0, e1]

end Cert.ReferenceIdeal.RefValue

end
-- ==== Proof.lean ====
/-
  The certificate of the streamed matmul kernel against `jnp.dot(total_features, norm_weight.T)`.

  The kernel keeps the 1024×512 feature matrix resident and streams the 100000×512 weight matrix through in 25 blocks
  of 4096 rows; point `t` multiplies the feature matrix by the transposed block and writes columns `4096·t ‥` of the
  1024×100000 result. The last block overhangs both arrays by 2400 rows / columns: the rows past the weight
  matrix's end hold values nothing names, and they feed only the columns past the result's end, which are never
  written back (column q of a product block depends on the weight block only through its row q).

  On the extended reals both programs compute `logits x w (r, q) = ∑ k < 512, x (r, k) * w (q, k)`, the same sum in the
  same order (the conversions to bf16 are the identity there), so the algebraic claim needs no law beyond reading
  both sides at an index and never uses the inputs' finiteness.

  * `frame_Kernel` (bit patterns): the body's four whole-buffer accesses are in bounds whatever the buffers hold; the
    proof data says nothing of the staging buffers' contents.
  * `frame_KernelIdeal` and the kernel's half of `algebraic`: one run of @main whose proof data names what every
    staging buffer holds after the body on the part its transfers move; the result array is then read off the
    25 write-backs.
  * `frame_ReferenceIdeal` and the reference's half: its two host operations (transpose, dot_general) read at an
    index.
  * `preserves`: the idealization rewrote nothing.
-/
import proofs.«120571_g12781822673385_cont_fleet_1281_28_alg».proof.Defs
import proofs.«120571_g12781822673385_cont_fleet_1281_28_alg».proof.Proof.Gen.Kernel
import proofs.«120571_g12781822673385_cont_fleet_1281_28_alg».proof.Proof.Gen.KernelIdeal
import proofs.«120571_g12781822673385_cont_fleet_1281_28_alg».proof.Proof.Gen.ReferenceIdeal
import proofs.«120571_g12781822673385_cont_fleet_1281_28_alg».proof.Proof.Gen.Pre_finite_inputs
import proofs.«120571_g12781822673385_cont_fleet_1281_28_alg».proof.Proof.KernelFrame
import proofs.«120571_g12781822673385_cont_fleet_1281_28_alg».proof.Proof.IdealValue
import proofs.«120571_g12781822673385_cont_fleet_1281_28_alg».proof.Proof.RefSide
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Hand.frame (F := Bits) m ρ

theorem frame_ki : Cert.frame_KernelIdeal := fun m ρ _ =>
  Cert.KernelIdeal.Gen.frame_of m ρ (Cert.KernelIdeal.Hand.dats m) (Cert.KernelIdeal.Hand.A_eq m)
    (Cert.KernelIdeal.Hand.run_main m ρ)

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result array at the logits of the (agreeing) argument matrices. -/
theorem algebraic : Cert.algebraic_KernelIdeal_ReferenceIdeal := by
  intro m ρ m' ρ' _ hagree
  refine ⟨_, Cert.KernelIdeal.Hand.value_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v1_eq, Cert.ReferenceIdeal.RefValue.ref_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
